-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S256x64 : Shape := ⟨2, ![256, 64]⟩
abbrev S256 : Shape := ⟨1, ![256]⟩
abbrev S1 : Shape := ⟨1, ![1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S131072x64 .f32) (main_arg1 : FVec F S256x64 .f32) (main_arg2 : FVec F S256x64 .f32) (main_arg3 : FVec F S256 .f32) (main_arg4 : FVec F S1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S131072x64 : Shape := ⟨2, ![131072, 64]⟩
abbrev S256x64 : Shape := ⟨2, ![256, 64]⟩
abbrev S256 : Shape := ⟨1, ![256]⟩
abbrev S1 : Shape := ⟨1, ![1]⟩
abbrev S_ : Shape := ⟨0, ![]⟩
abbrev S1x1 : Shape := ⟨2, ![1, 1]⟩
abbrev S1x256 : Shape := ⟨2, ![1, 256]⟩
abbrev S131072x256 : Shape := ⟨2, ![131072, 256]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩
abbrev S64x256 : Shape := ⟨2, ![64, 256]⟩

abbrev nBuf : Space → Nat
  | .hbm => 28
  | .vmem => 10
  | .smem => 0
  | _ => 0

abbrev bufTy : (tb : Table) → Fin (tcTables nBuf tb) → BufTy
  | .hbm, ⟨0, _⟩ => ⟨S131072x64, .f32⟩
  | .hbm, ⟨1, _⟩ => ⟨S256x64, .f32⟩
  | .hbm, ⟨2, _⟩ => ⟨S256x64, .f32⟩
  | .hbm, ⟨3, _⟩ => ⟨S256, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S131072x64, .f32⟩
  | .hbm, ⟨27, _⟩ => ⟨S131072x256, .f32⟩
  | .local _ .vmem, ⟨0, _⟩ => ⟨S2048x64, .f32⟩
  | .local _ .vmem, ⟨1, _⟩ => ⟨S2048x64, .f32⟩
  | .local _ .vmem, ⟨2, _⟩ => ⟨S256x64, .f32⟩
  | .local _ .vmem, ⟨3, _⟩ => ⟨S256x64, .f32⟩
  | .local _ .vmem, ⟨4, _⟩ => ⟨S1x256, .f32⟩
  | .local _ .vmem, ⟨5, _⟩ => ⟨S1x1, .f32⟩
  | .local _ .vmem, ⟨6, _⟩ => ⟨S2048x64, .f32⟩
  | .local _ .vmem, ⟨7, _⟩ => ⟨S2048x64, .f32⟩
  | .local _ .vmem, ⟨8, _⟩ => ⟨S2048x256, .f32⟩
  | .local _ .vmem, ⟨9, _⟩ => ⟨S2048x256, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1_S_ : S1.ShapeCasts S_
  shapeCasts_S_S1x1 : S_.ShapeCasts S1x1
  bcast_S_S256 : S_.BroadcastsInDim S256 (![] : Fin 0 → Fin S256.rank)
  bcast_S256_S1x256_1 : S256.BroadcastsInDim S1x256 (![1] : Fin 1 → Fin S1x256.rank)
  inb_S2048x64_S2048x64_0_0 : ∀ a, (![0, 0] : Fin 2 → Nat) a + S2048x64.size a ≤ S2048x64.size a
  h_S2048x64 : 0 < S2048x64.numel
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S2048x64_S2048 : S2048x64.Reduces [1] S2048
  shapeCasts_S2048_S2048x1 : S2048.ShapeCasts S2048x1
  reduces_S256x64_S256 : S256x64.Reduces [1] S256
  shapeCasts_S256_S1x256 : S256.ShapeCasts S1x256
  broadcasts_S2048x1_S2048x256 : S2048x1.Broadcasts S2048x256
  broadcasts_S1x256_S2048x256 : S1x256.Broadcasts S2048x256
  transposes_S256x64_p1_0_S64x256 : S256x64.Transposes [1, 0] S64x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  dot_S2048x64_S64x256_S2048x256_1_0_0_1_n_n_wf : DotDims.WF S2048x64 S64x256 S2048x256 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S131072x64.size a
  hwx0_5 : ∀ i : grid0.Coords, EltTy.bits .f32 = 32 ∨ (Rect.block (s := S131072x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S131072x256.size a
  hwx0_6 : ∀ i : grid0.Coords, EltTy.bits .f32 = 32 ∨ (Rect.block (s := S131072x256) S2048x256.size (cc0_transform_6 i) (hinb0_6 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S256x64 : Shape := ⟨2, ![256, 64]⟩
abbrev S256 : Shape := ⟨1, ![256]⟩
abbrev S1 : Shape := ⟨1, ![1]⟩
abbrev S_ : Shape := ⟨0, ![]⟩
abbrev S1x256 : Shape := ⟨2, ![1, 256]⟩
abbrev S131072 : Shape := ⟨1, ![131072]⟩
abbrev S131072x1 : Shape := ⟨2, ![131072, 1]⟩
abbrev S131072x256 : Shape := ⟨2, ![131072, 256]⟩
abbrev S64x256 : Shape := ⟨2, ![64, 256]⟩

abbrev nBuf : Space → Nat
  | .hbm => 91
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S256x64, .f32⟩
  | .hbm, ⟨2, _⟩ => ⟨S256x64, .f32⟩
  | .hbm, ⟨3, _⟩ => ⟨S256, .f32⟩
  | .hbm, ⟨4, _⟩ => ⟨S1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S131072x64, .f32⟩
  | .hbm, ⟨26, _⟩ => ⟨S_, .f32⟩
  | .hbm, ⟨27, _⟩ => ⟨S131072, .f32⟩
  | .hbm, ⟨28, _⟩ => ⟨S131072x1, .f32⟩
  | .hbm, ⟨29, _⟩ => ⟨S256x64, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S64x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x64, .f32⟩
  | .hbm, ⟨47, _⟩ => ⟨S_, .f32⟩
  | .hbm, ⟨48, _⟩ => ⟨S131072, .f32⟩
  | .hbm, ⟨49, _⟩ => ⟨S131072x1, .f32⟩
  | .hbm, ⟨50, _⟩ => ⟨S256x64, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S131072x256, .f32⟩
  | .hbm, ⟨55, _⟩ => ⟨S131072x256, .f32⟩
  | .hbm, ⟨56, _⟩ => ⟨S131072x256, .f32⟩
  | .hbm, ⟨57, _⟩ => ⟨S64x256, .f32⟩
  | .hbm, ⟨58, _⟩ => ⟨S131072x256, .f32⟩
  | .hbm, ⟨59, _⟩ => ⟨S_, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S_, .f32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S131072x256, .f32⟩
  | .hbm, ⟨72, _⟩ => ⟨S_, .f32⟩
  | .hbm, ⟨73, _⟩ => ⟨S131072, .f32⟩
  | .hbm, ⟨74, _⟩ => ⟨S131072x1, .f32⟩
  | .hbm, ⟨75, _⟩ => ⟨S_, .f32⟩
  | .hbm, ⟨76, _⟩ => ⟨S131072x1, .f32⟩
  | .hbm, ⟨77, _⟩ => ⟨S131072x1, .f32⟩
  | .hbm, ⟨78, _⟩ => ⟨S131072x256, .f32⟩
  | .hbm, ⟨79, _⟩ => ⟨S131072x256, .f32⟩
  | .hbm, ⟨80, _⟩ => ⟨S131072x256, .f32⟩
  | .hbm, ⟨81, _⟩ => ⟨S131072x256, .f32⟩
  | .hbm, ⟨82, _⟩ => ⟨S_, .f32⟩
  | .hbm, ⟨83, _⟩ => ⟨S131072, .f32⟩
  | .hbm, ⟨84, _⟩ => ⟨S131072x1, .f32⟩
  | .hbm, ⟨85, _⟩ => ⟨S_, .f32⟩
  | .hbm, ⟨86, _⟩ => ⟨S131072x1, .f32⟩
  | .hbm, ⟨87, _⟩ => ⟨S131072x1, .f32⟩
  | .hbm, ⟨88, _⟩ => ⟨S131072x256, .f32⟩
  | .hbm, ⟨89, _⟩ => ⟨S131072x256, .f32⟩
  | .hbm, ⟨90, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  shapeCasts_S1_S_ : S1.ShapeCasts S_
  bcast_S_S256 : S_.BroadcastsInDim S256 (![] : Fin 0 → Fin S256.rank)
  bcast_S256_S1x256_1 : S256.BroadcastsInDim S1x256 (![1] : Fin 1 → Fin S1x256.rank)
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S256x64_S256_d1 : S256x64.ReducesTo [1] S256
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  transposes_S256x64_S64x256_1_0 : S256x64.Transposes [1, 0] S64x256
  bcast_S_S131072x256 : S_.BroadcastsInDim S131072x256 (![] : Fin 0 → Fin S131072x256.rank)
  reducesTo_S131072x256_S131072_d1 : S131072x256.ReducesTo [1] S131072
  bcast_S_S131072x1 : S_.BroadcastsInDim S131072x1 (![] : Fin 0 → Fin S131072x1.rank)
  dot_S131072x64_S64x256_S131072x256_1_0_0_1_n_n_wf : DotDims.WF S131072x64 S64x256 S131072x256 [1] [0] [0] [1] [] []
  dot_S131072x256_S256x64_S131072x64_1_0_0_1_n_n_wf : DotDims.WF S131072x256 S256x64 S131072x64 [1] [0] [0] [1] [] []

variable [Facts₀]

def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf

class Facts : Prop extends Facts₀ where

variable [Facts]
-- ==== Proof.GatedSoftmin.lean ====
/-
  The function both programs compute, row by row, over the extended reals.

  For one point `x` (a row of `D` coordinates), two families of `C` centres `P` and `Q` (each centre a row of `D` coordinates),
  a gate `g` on the centres and a temperature `τ`:
    • the distance of `x` to a centre `p` is taken from the expanded square, `√(max(|x|² + |p|² − 2·⟨x, p⟩, 0))`;
    • the score of centre `c` is `exp(−(dist(x, P c) + dist(x, Q c)) / τ)`;
    • the scores are normalised by their sum plus `ε`, multiplied by the gate, and normalised again by the new sum plus `ε`:
      these are the weights of `x`;
    • the blend of `x` is the weighted sum of the centres `P c`.
  The gate of a centre is the logistic function `1 / (1 + exp(−ℓ))` of its logit `ℓ`, and the temperature is the logistic function of
  a raw parameter, scaled and shifted. The constants `2`, `1`, `ε`, the scale and the shift are kept as the f32 words both programs
  spell them with, so nothing here depends on their values; the zero the square is clamped at is the number `0`.

  `weights` and `blends` are these functions over whole arrays: `N` points, `C` centres, `D` coordinates.
-/
import Idealize.ShloMosaic.PureOps.Ideal
import Idealize.ShloMosaic.Lib.ValueIdx

noncomputable section

open scoped BigOperators

namespace Cert.GatedSoftmin

open Idealize.ShloMosaic Idealize.ShloMosaic.ValueIdx

variable {N D C : ℕ}

/-- The squared length of a row, as the sum of its coordinates' squares. -/
def sqLen (v : Fin D → EReal) : EReal := ∑ k : Fin D, v k * v k

/-- The inner product of two rows. -/
def inner (v w : Fin D → EReal) : EReal := ∑ k : Fin D, v k * w k

/-- The distance between two rows, from the expanded square clamped at zero. -/
def dist (x p : Fin D → EReal) : EReal :=
  Ideal.sqrt (max (sqLen x + sqLen p - Ideal.ofBits .f32 0x40000000#32 * inner x p) 0)

/-- The summed distance of `x` to centre `c` of both families. -/
def spread (x : Fin D → EReal) (P Q : Fin C → Fin D → EReal) (c : Fin C) : EReal := dist x (P c) + dist x (Q c)

/-- The score of centre `c`: the exponential of minus the summed distance over the temperature. -/
def score (x : Fin D → EReal) (P Q : Fin C → Fin D → EReal) (τ : EReal) (c : Fin C) : EReal :=
  Ideal.exp (Ideal.div (-(spread x P Q c)) τ)

/-- A family of numbers divided by its sum plus `ε`. -/
def normalise (s : Fin C → EReal) (c : Fin C) : EReal :=
  Ideal.div (s c) ((∑ k : Fin C, s k) + Ideal.ofBits .f32 0x322BCC77#32)

/-- The gated, twice normalised weights of `x`. -/
def weight (x : Fin D → EReal) (P Q : Fin C → Fin D → EReal) (g : Fin C → EReal) (τ : EReal) : Fin C → EReal :=
  normalise fun c => normalise (score x P Q τ) c * g c

/-- The weighted sum of the centres of the first family. -/
def blend (x : Fin D → EReal) (P Q : Fin C → Fin D → EReal) (g : Fin C → EReal) (τ : EReal) (d : Fin D) : EReal :=
  ∑ c : Fin C, weight x P Q g τ c * P c d

/-- The logistic function `1 / (1 + exp(−ℓ))`. -/
def logistic (l : EReal) : EReal :=
  Ideal.div (Ideal.ofBits .f32 0x3F800000#32) (Ideal.ofBits .f32 0x3F800000#32 + Ideal.exp (-l))

/-- The temperature from its raw parameter: the logistic function, scaled and shifted. -/
def temperature (t : EReal) : EReal :=
  logistic t * Ideal.ofBits .f32 0x3F7FBE77#32 + Ideal.ofBits .f32 0x3A83126F#32

/-- Row `r` of a matrix. -/
abbrev row (X : (⟨2, ![N, D]⟩ : Shape).Idx → EReal) (r : Fin N) : Fin D → EReal := fun k => X (ix2 r k)

/-- The gates of all centres from their logits. -/
abbrev gates (l : (⟨1, ![C]⟩ : Shape).Idx → EReal) : Fin C → EReal := fun c => logistic (l (ix1 c))

/-- The weights of every point: entry `(r, c)` is the weight of centre `c` for point `r`. -/
def weights (X : (⟨2, ![N, D]⟩ : Shape).Idx → EReal) (P Q : (⟨2, ![C, D]⟩ : Shape).Idx → EReal)
    (l : (⟨1, ![C]⟩ : Shape).Idx → EReal) (t : (⟨1, ![1]⟩ : Shape).Idx → EReal) : (⟨2, ![N, C]⟩ : Shape).Idx → EReal :=
  fun i => weight (row X ⟨(i 0).val, idx2_lt0 i⟩) (row P) (row Q) (gates l) (temperature (t (ix1 (0 : Fin 1)))) ⟨(i 1).val, idx2_lt1 i⟩

/-- The blends of every point: entry `(r, d)` is coordinate `d` of the blend of point `r`. -/
def blends (X : (⟨2, ![N, D]⟩ : Shape).Idx → EReal) (P Q : (⟨2, ![C, D]⟩ : Shape).Idx → EReal)
    (l : (⟨1, ![C]⟩ : Shape).Idx → EReal) (t : (⟨1, ![1]⟩ : Shape).Idx → EReal) : (⟨2, ![N, D]⟩ : Shape).Idx → EReal :=
  fun i => blend (row X ⟨(i 0).val, idx2_lt0 i⟩) (row P) (row Q) (gates l) (temperature (t (ix1 (0 : Fin 1)))) ⟨(i 1).val, idx2_lt1 i⟩

end Cert.GatedSoftmin

end
-- ==== Proof.ReferenceRows.lean ====
/-
  The reference program, read one entry at a time, computes the gated softmin weights and their blends.

  Each stage of the host program is read at an index given by coordinates: the row sums of squares are squared lengths, the
  matrix product with the transposed centres is the inner product of a point's row with a centre's row, the broadcasts repeat
  a row's or a centre's number along the other axis, and the two reductions along the centres are the sums the two
  normalisations divide by. The host's initial value `0` of each sum is absorbed by `0 + s = s`.
-/
import proofs.«116789_j46643344834801_1_alg».proof.Proof.Gen.ReferenceIdeal.Read
import proofs.«116789_j46643344834801_1_alg».proof.Proof.GatedSoftmin

noncomputable section

open scoped BigOperators

namespace Cert.ReferenceIdeal.Rows

open Cert.ReferenceIdeal Cert.ReferenceIdeal.Read Idealize.ShloMosaic Idealize.ShloMosaic.ValueIdx Cert.GatedSoftmin

/-- An f32 array of shape `s` at the extended reals. -/
abbrev Arr (s : Shape) := (⟨s, .f32⟩ : BufTy).Contents (Elt Ideal)

variable (x0 : Arr S131072x64) (x1 x2 : Arr S256x64) (x3 : Arr S256) (x4 : Arr S1)

/-- The sum of squares along row `r` of the points is that row's squared length. -/
theorem sqLen_points (r : Fin 131072) : val_main_v15 (F := Ideal) x0 (ix1 r) = sqLen (row x0 r) := by
  have e : ∀ k : Fin 64, idx_main_v15 (ix1 r) k = ix2 r k := fun k => funext fun a => Fin.ext (by
    match a with | ⟨0, _⟩ => rfl | ⟨1, _⟩ => rfl)
  rw [val_main_v15_apply]
  simp only [val_main_cst_5_apply, val_main_v14_apply, Ideal.ofBits_def, Ideal.ofBits_zero_f32, zero_add, e]
  rfl

/-- The sum of squares along row `c` of the first family of centres is that centre's squared length. -/
theorem sqLen_centresP (c : Fin 256) : val_main_v18 (F := Ideal) x1 (ix1 c) = sqLen (row x1 c) := by
  have e : ∀ k : Fin 64, idx_main_v18 (ix1 c) k = ix2 c k := fun k => funext fun a => Fin.ext (by
    match a with | ⟨0, _⟩ => rfl | ⟨1, _⟩ => rfl)
  rw [val_main_v18_apply]
  simp only [val_main_cst_6_apply, val_main_v17_apply, Ideal.ofBits_def, Ideal.ofBits_zero_f32, zero_add, e]
  rfl

/-- The same sum of squares, computed a second time by the program for the second distance. -/
theorem sqLen_points' (r : Fin 131072) : val_main_v32 (F := Ideal) x0 (ix1 r) = sqLen (row x0 r) := by
  have e : ∀ k : Fin 64, idx_main_v32 (ix1 r) k = ix2 r k := fun k => funext fun a => Fin.ext (by
    match a with | ⟨0, _⟩ => rfl | ⟨1, _⟩ => rfl)
  rw [val_main_v32_apply]
  simp only [val_main_cst_9_apply, val_main_v31_apply, Ideal.ofBits_def, Ideal.ofBits_zero_f32, zero_add, e]
  rfl

/-- The sum of squares along row `c` of the second family of centres. -/
theorem sqLen_centresQ (c : Fin 256) : val_main_v35 (F := Ideal) x2 (ix1 c) = sqLen (row x2 c) := by
  have e : ∀ k : Fin 64, idx_main_v35 (ix1 c) k = ix2 c k := fun k => funext fun a => Fin.ext (by
    match a with | ⟨0, _⟩ => rfl | ⟨1, _⟩ => rfl)
  rw [val_main_v35_apply]
  simp only [val_main_cst_10_apply, val_main_v34_apply, Ideal.ofBits_def, Ideal.ofBits_zero_f32, zero_add, e]
  rfl

/-- Entry `(r, c)` of the first distance matrix is the distance of point `r` to centre `c` of the first family. -/
theorem dist_P (r : Fin 131072) (c : Fin 256) :
    val_main_v30 (F := Ideal) x0 x1 (ix2 r c) = dist (row x0 r) (row x1 c) := by
  have e1 : idx_main_v16 (idx_main_v20 (ix2 r c)) = ix1 r := funext fun a => Fin.ext (by match a with | ⟨0, _⟩ => rfl)
  have e2 : idx_main_v19 (idx_main_v21 (ix2 r c)) = ix1 c := funext fun a => Fin.ext (by match a with | ⟨0, _⟩ => rfl)
  have e3 : ∀ k : Fin 64, lidx_main_v24 (ix2 r c) k = ix2 r k := fun k => funext fun a => Fin.ext (by
    match a with | ⟨0, _⟩ => rfl | ⟨1, _⟩ => rfl)
  have e4 : ∀ k : Fin 64, idx_main_v23 (ridx_main_v24 (ix2 r c) k) = ix2 c k := fun k => funext fun a => Fin.ext (by
    match a with | ⟨0, _⟩ => rfl | ⟨1, _⟩ => rfl)
  simp only [val_main_v30_apply, val_main_v29_apply, val_main_v28_apply, val_main_cst_8_apply, val_main_v27_apply,
    val_main_v26_apply, val_main_v25_apply, val_main_cst_7_apply, val_main_v24_apply, val_main_v23_apply, val_main_v22_apply,
    val_main_v21_apply, val_main_v20_apply, val_main_v19_apply, val_main_v16_apply, e1, e2, e3, e4, sqLen_points, sqLen_centresP,
    Ideal.ofBits_def, Ideal.ofBits_zero_f32]
  rfl

/-- Entry `(r, c)` of the second distance matrix is the distance of point `r` to centre `c` of the second family. -/
theorem dist_Q (r : Fin 131072) (c : Fin 256) :
    val_main_v47 (F := Ideal) x0 x2 (ix2 r c) = dist (row x0 r) (row x2 c) := by
  have e1 : idx_main_v33 (idx_main_v37 (ix2 r c)) = ix1 r := funext fun a => Fin.ext (by match a with | ⟨0, _⟩ => rfl)
  have e2 : idx_main_v36 (idx_main_v38 (ix2 r c)) = ix1 c := funext fun a => Fin.ext (by match a with | ⟨0, _⟩ => rfl)
  have e3 : ∀ k : Fin 64, lidx_main_v41 (ix2 r c) k = ix2 r k := fun k => funext fun a => Fin.ext (by
    match a with | ⟨0, _⟩ => rfl | ⟨1, _⟩ => rfl)
  have e4 : ∀ k : Fin 64, idx_main_v40 (ridx_main_v41 (ix2 r c) k) = ix2 c k := fun k => funext fun a => Fin.ext (by
    match a with | ⟨0, _⟩ => rfl | ⟨1, _⟩ => rfl)
  simp only [val_main_v47_apply, val_main_v46_apply, val_main_v45_apply, val_main_cst_12_apply, val_main_v44_apply,
    val_main_v43_apply, val_main_v42_apply, val_main_cst_11_apply, val_main_v41_apply, val_main_v40_apply, val_main_v39_apply,
    val_main_v38_apply, val_main_v37_apply, val_main_v36_apply, val_main_v33_apply, e1, e2, e3, e4, sqLen_points', sqLen_centresQ,
    Ideal.ofBits_def, Ideal.ofBits_zero_f32]
  rfl

/-- The scalar the program divides by is the temperature of the raw parameter. -/
theorem temperature_eq (j : S_.Idx) : val_main_v6 (F := Ideal) x4 j = temperature (x4 (ix1 (0 : Fin 1))) := by
  have e0 : val_main_v0 (F := Ideal) x4 j = x4 (ix1 (0 : Fin 1)) := by
    unfold val_main_v0
    refine shapeCast_apply x4 _ j (ix1 (0 : Fin 1)) ?_
    rw [Shape.rowMajor_val_one]
    have := (S_.rowMajor j).isLt
    show 0 = (S_.rowMajor j).val
    have h1 : S_.numel = 1 := rfl
    omega
  simp only [val_main_v6_apply, val_main_v5_apply, val_main_v4_apply, val_main_v3_apply, val_main_v2_apply, val_main_v1_apply,
    val_main_cst_apply, val_main_cst_0_apply, val_main_cst_1_apply, val_main_cst_2_apply, e0, Ideal.ofBits_def]
  rfl

/-- Entry `(r, c)` of the exponentials is the score of centre `c` for point `r`. -/
theorem score_apply (r : Fin 131072) (c : Fin 256) :
    val_main_v52 (F := Ideal) x0 x1 x2 x4 (ix2 r c)
      = score (row x0 r) (row x1) (row x2) (temperature (x4 (ix1 (0 : Fin 1)))) c := by
  simp only [val_main_v52_apply, val_main_v51_apply, val_main_v50_apply, val_main_v49_apply, val_main_v48_apply, dist_P, dist_Q,
    temperature_eq]
  rfl

/-- Entry `(r, c)` after the first normalisation. -/
theorem normalised_apply (r : Fin 131072) (c : Fin 256) :
    val_main_v58 (F := Ideal) x0 x1 x2 x4 (ix2 r c)
      = normalise (score (row x0 r) (row x1) (row x2) (temperature (x4 (ix1 (0 : Fin 1))))) c := by
  have e1 : idx_main_v54 (idx_main_v57 (ix2 r c)) = ix1 r := funext fun a => Fin.ext (by match a with | ⟨0, _⟩ => rfl)
  have e2 : ∀ k : Fin 256, idx_main_v53 (ix1 r) k = ix2 r k := fun k => funext fun a => Fin.ext (by
    match a with | ⟨0, _⟩ => rfl | ⟨1, _⟩ => rfl)
  simp only [val_main_v58_apply, val_main_v57_apply, val_main_v56_apply, val_main_v55_apply, val_main_cst_14_apply,
    val_main_v54_apply, e1, val_main_v53_apply, val_main_cst_13_apply, e2, score_apply, Ideal.ofBits_def, Ideal.ofBits_zero_f32,
    zero_add]
  rfl

/-- The gate row read at centre `c` is the logistic function of that centre's logit. -/
theorem gate_apply (u : Fin 1) (c : Fin 256) : val_main_v13 (F := Ideal) x3 (ix2 u c) = logistic (x3 (ix1 c)) := by
  have e1 : idx_main_v13 (ix2 u c) = ix1 c := funext fun a => Fin.ext (by match a with | ⟨0, _⟩ => rfl)
  simp only [val_main_v13_apply, e1, val_main_v12_apply, val_main_v11_apply, val_main_cst_4_apply, val_main_v10_apply,
    val_main_v9_apply, val_main_cst_3_apply, val_main_v8_apply, val_main_v7_apply, Ideal.ofBits_def]
  rfl

/-- Entry `(r, c)` after the gate is applied. -/
theorem gated_apply (r : Fin 131072) (c : Fin 256) :
    val_main_v60 (F := Ideal) x0 x1 x2 x3 x4 (ix2 r c)
      = normalise (score (row x0 r) (row x1) (row x2) (temperature (x4 (ix1 (0 : Fin 1))))) c * gates x3 c := by
  have e1 : idx_main_v59 (ix2 r c) = ix2 (0 : Fin 1) c := funext fun a => Fin.ext (by
    match a with | ⟨0, _⟩ => rfl | ⟨1, _⟩ => rfl)
  simp only [val_main_v60_apply, val_main_v59_apply, e1, gate_apply, normalised_apply]
  rfl

/-- Entry `(r, c)` of the second result: the weight of centre `c` for point `r`. -/
theorem weight_apply (r : Fin 131072) (c : Fin 256) :
    val_main_v66 (F := Ideal) x0 x1 x2 x3 x4 (ix2 r c)
      = weight (row x0 r) (row x1) (row x2) (gates x3) (temperature (x4 (ix1 (0 : Fin 1)))) c := by
  have e1 : idx_main_v62 (idx_main_v65 (ix2 r c)) = ix1 r := funext fun a => Fin.ext (by match a with | ⟨0, _⟩ => rfl)
  have e2 : ∀ k : Fin 256, idx_main_v61 (ix1 r) k = ix2 r k := fun k => funext fun a => Fin.ext (by
    match a with | ⟨0, _⟩ => rfl | ⟨1, _⟩ => rfl)
  simp only [val_main_v66_apply, val_main_v65_apply, val_main_v64_apply, val_main_v63_apply, val_main_cst_16_apply,
    val_main_v62_apply, e1, val_main_v61_apply, val_main_cst_15_apply, e2, gated_apply, Ideal.ofBits_def, Ideal.ofBits_zero_f32,
    zero_add]
  rfl

/-- Entry `(r, d)` of the first result: coordinate `d` of the blend of point `r`. -/
theorem blend_apply (r : Fin 131072) (d : Fin 64) :
    val_main_v67 (F := Ideal) x0 x1 x2 x3 x4 (ix2 r d)
      = blend (row x0 r) (row x1) (row x2) (gates x3) (temperature (x4 (ix1 (0 : Fin 1)))) d := by
  have e1 : ∀ k : Fin 256, lidx_main_v67 (ix2 r d) k = ix2 r k := fun k => funext fun a => Fin.ext (by
    match a with | ⟨0, _⟩ => rfl | ⟨1, _⟩ => rfl)
  have e2 : ∀ k : Fin 256, ridx_main_v67 (ix2 r d) k = ix2 k d := fun k => funext fun a => Fin.ext (by
    match a with | ⟨0, _⟩ => rfl | ⟨1, _⟩ => rfl)
  rw [val_main_v67_apply]
  simp only [e1, e2, weight_apply]
  rfl

/-- The second result is the array of all weights. -/
theorem weights_eq : val_main_v66 (F := Ideal) x0 x1 x2 x3 x4 = weights x0 x1 x2 x3 x4 := by
  funext i
  obtain ⟨r, c, rfl⟩ : ∃ (r : Fin 131072) (c : Fin 256), i = ix2 r c := ⟨i 0, i 1, eq_ix2 i⟩
  exact weight_apply x0 x1 x2 x3 x4 r c

/-- The first result is the array of all blends. -/
theorem blends_eq : val_main_v67 (F := Ideal) x0 x1 x2 x3 x4 = blends x0 x1 x2 x3 x4 := by
  funext i
  obtain ⟨r, d, rfl⟩ : ∃ (r : Fin 131072) (d : Fin 64), i = ix2 r d := ⟨i 0, i 1, eq_ix2 i⟩
  exact blend_apply x0 x1 x2 x3 x4 r d

end Cert.ReferenceIdeal.Rows

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«116789_j46643344834801_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibRowSumBroadcast.lean ====
/-
  A row sum kept along a unit axis and broadcast back, read at an index given by coordinates, over the extended reals.

  For a matrix `src` of shape `[a, b]`, the sum along each row taken into the zero accumulator (the f32 word `0x00000000`, with the
  accumulator's side condition stated as the equation `0x00000000 = 0x00000000` it is printed with):
    • `rowSum`: at row `r` it is `Σ_{k < b} src (r, k)`;
    • `colBroadcast`: kept as the column `[a, 1]` (a sum with `keepdims`) and broadcast to `[a, n]`, at `(p, q)` it is the sum along row `p`;
    • `rowBroadcast`: kept as the row `[1, a]` and broadcast to `[n, a]`, at `(p, q)` it is the sum along row `q`.
  Stated with the side conditions as hypotheses of exactly these types, the three rewrite a printed body directly.
  Needs `LibColumn.lean` and `LibRowReduce.lean` (with its `LibRowColumn.lean`) beside it.
-/
import proofs.«116789_j46643344834801_1_alg».proof.Proof.LibColumn
import proofs.«116789_j46643344834801_1_alg».proof.Proof.LibRowReduce
import Idealize.ShloMosaic.Lib.ValueLayout

noncomputable section

open scoped BigOperators

namespace Idealize.ShloMosaic.RowSumBroadcast

open Idealize.ShloMosaic Idealize.ShloMosaic.ValueIdx

/-- The sum along row `r` of a matrix, as a reduction into the zero accumulator computes it. -/
theorem rowSum {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  RowReduce.multiReduction_add_cols src _ h hφ hacc r

/-- A row sum kept as a column and broadcast along the other axis reads, at `(p, q)`, the sum along row `p`. -/
theorem colBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) (p : Fin a) (q : Fin n) :
    broadcastTo ⟨2, ![a, n]⟩ (shapeCast ⟨2, ![a, 1]⟩ (multiReduction .add [1] ⟨1, ![a]⟩ src 0x00000000#32 h hφ hacc) hc) hb (ix2 p q)
      = ∑ k : Fin b, src (ix2 p k) := by
  rw [Column.broadcastTo_a1_ab_apply, Column.shapeCast_a_a1_apply, rowSum]

/-- A row sum kept as a row and broadcast along the other axis reads, at `(p, q)`, the sum along row `q`. -/
theorem rowBroadcast {a b n : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32)
    (hc : (⟨1, ![a]⟩ : Shape).ShapeCasts ⟨2, ![1, a]⟩) (hb : (⟨2, ![1, a]⟩ : Shape).Broadcasts ⟨2, ![n, a]⟩) (p : Fin n) (q : Fin a) :
    broadcastTo ⟨2, ![n, a]⟩ (shapeCast ⟨2, ![1, a]⟩ (multiReduction .add [1] ⟨1, ![a]⟩ src 0x00000000#32 h hφ hacc) hc) hb (ix2 p q)
      = ∑ k : Fin b, src (ix2 q k) := by
  rw [broadcastTo_1b_ab_apply, shapeCast_a_1a_apply, rowSum]

end Idealize.ShloMosaic.RowSumBroadcast

end
-- ==== Proof.BodyRows.lean ====
/-
  One run of the kernel body, read one entry at a time, computes the gated softmin weights and their blends of the rows of
  its block of points.

  The body holds a block of `2048` points, both families of centres whole, the gate row `[1, 256]` and the temperature `[1, 1]`.
  A row sum kept as a column and broadcast back repeats a point's number along the centres; a centre's number kept as a row
  and broadcast repeats it along the points; the product with the transposed centres is the inner product of a point's row with
  a centre's row. The difference `0 − d` the body takes is `−d`.
-/
import proofs.«116789_j46643344834801_1_alg».proof.Proof.Gen.KernelIdeal.Skeleton
import proofs.«116789_j46643344834801_1_alg».proof.Proof.GatedSoftmin
import proofs.«116789_j46643344834801_1_alg».proof.Proof.LibPlainDot
import proofs.«116789_j46643344834801_1_alg».proof.Proof.LibColumn
import proofs.«116789_j46643344834801_1_alg».proof.Proof.LibRowSumBroadcast
import Idealize.ShloMosaic.Lib.ValueLayout
import Idealize.ShloMosaic.Lib.Pipeline.Value

noncomputable section

open scoped BigOperators

namespace Cert.KernelIdeal.Rows

open Cert.KernelIdeal Cert.KernelIdeal.Gen Idealize.ShloMosaic Idealize.ShloMosaic.ValueIdx Cert.GatedSoftmin
open Idealize.ShloMosaic.RowSumBroadcast

/-- The product of a block of rows with the transposed centres reads, at `(p, q)`, the inner product of row `p` with centre `q`. -/
theorem rowsTimesTransposed (x : FVec Ideal S2048x64 .f32) (y : FVec Ideal S256x64 .f32) (p : Fin 2048) (q : Fin 256) :
    matmul dot_S2048x64_S64x256_S2048x256_1_0_0_1_n_n none x (transpose S64x256 [1, 0] y transposes_S256x64_p1_0_S64x256)
        (constant S2048x256 .f32 0x00000000#32) (ix2 p q)
      = inner (row x p) (row y q) := by
  have hd : dot_S2048x64_S64x256_S2048x256_1_0_0_1_n_n = DotDims.plain 2048 64 256 := rfl
  rw [hd]
  refine (PlainDot.matmul_apply_ix2 none x _ p q).trans ?_
  exact Finset.sum_congr rfl fun k _ => congrArg (x (ix2 p k) * ·) (transpose_ix2_apply y _ k q)

variable (v0 : FVec Ideal S2048x64 .f32) (v1 v2 : FVec Ideal S256x64 .f32)

/-- The summed distances the first part of the body leaves: entry `(p, q)` is the summed distance of the block's point `p` to
    centre `q` of both families. -/
theorem spread_apply (p : Fin 2048) (q : Fin 256) :
    k0_pay5 (F := Ideal) v0 v1 v2 (ix2 p q) = spread (row v0 p) (row v1) (row v2) q := by
  unfold k0_pay5
  simp only [addf_apply, subf_apply, mulf_apply, maximumf_apply, broadcast_apply]
  show Ideal.sqrt (max (_ + _ - _ * _) _) + Ideal.sqrt (max (_ + _ - _ * _) _) = _
  rw [colBroadcast, rowBroadcast, rowBroadcast, rowsTimesTransposed, rowsTimesTransposed]
  show _ = dist (row v0 p) (row v1 q) + dist (row v0 p) (row v2 q)
  unfold GatedSoftmin.dist sqLen
  simp only [broadcast_apply, mulf_apply, Ideal.ofBits_def, Ideal.ofBits_zero_f32]

/-- The exponential and the square root of a vector read at an index are those of the entry. -/
theorem exp_apply {s : Shape} (a : FVec Ideal s .f32) (i : s.Idx) : exp a i = Ideal.exp (a i) := rfl

variable (v3 : FVec Ideal S1x256 .f32) (v5 : FVec Ideal S1x1 .f32) (τ : Ideal .f32) (v38 : FVec Ideal S2048x256 .f32)

/-- From the summed distances to the weights: entry `(p, q)` of the second part of the body is the score of entry `(p, q)`,
    normalised along row `p`, gated, and normalised along row `p` again. -/
theorem weight_of_spread (p : Fin 2048) (q : Fin 256) :
    k0_pay1 (F := Ideal) v3 τ v38 (Scalar.ofBits .f32 0x00000000#32) (ix2 p q)
      = normalise (fun c => normalise (fun c' => Ideal.exp (Ideal.div (-(v38 (ix2 p c'))) τ)) c * v3 (ix2 (0 : Fin 1) c)) q := by
  have hneg : ∀ x : EReal, (Scalar.ofBits (F := Ideal) .f32 0x00000000#32 : EReal) - x = -x := fun x => by
    show Ideal.ofBits .f32 0x00000000#32 - x = -x
    rw [Ideal.ofBits_zero_f32, zero_sub]
  unfold k0_pay1
  simp only [divf_apply, mulf_apply, addf_apply, subf_apply, exp_apply, broadcast_apply, Column.broadcastTo_a1_ab_apply,
    broadcastTo_1b_ab_apply, Column.shapeCast_a_a1_apply]
  rw [rowSum, rowSum]
  simp only [divf_apply, mulf_apply, addf_apply, subf_apply, exp_apply, broadcast_apply, Column.broadcastTo_a1_ab_apply,
    broadcastTo_1b_ab_apply, Column.shapeCast_a_a1_apply]
  rw [rowSum]
  simp only [divf_apply, subf_apply, exp_apply, broadcast_apply, hneg]
  rfl

/-- The gate row passes through its cast to the same shape, and the temperature is the one entry of its `[1, 1]` block. -/
theorem gate_cast : k0_pay3 (F := Ideal) v3 = v3 := shapeCast_self v3 _

theorem temp_extract : k0_pay4 (F := Ideal) v5 = v5 (ix2 (0 : Fin 1) (0 : Fin 1)) :=
  congrArg v5 (funext fun a => Fin.ext (by match a with | ⟨0, _⟩ => rfl | ⟨1, _⟩ => rfl))

/-- Entry `(p, q)` of what the body stores into the weights' block: the weight of centre `q` for the block's point `p`. -/
theorem weight_apply (p : Fin 2048) (q : Fin 256) :
    k0_pay1 (F := Ideal) (k0_pay3 v3) (k0_pay4 v5) (k0_pay5 v0 v1 v2) (Scalar.ofBits .f32 0x00000000#32) (ix2 p q)
      = weight (row v0 p) (row v1) (row v2) (fun c => v3 (ix2 (0 : Fin 1) c)) (v5 (ix2 (0 : Fin 1) (0 : Fin 1))) q := by
  rw [weight_of_spread, gate_cast, temp_extract]
  simp only [spread_apply]
  rfl

/-- Entry `(p, d)` of what the body stores into the blends' block: coordinate `d` of the blend of the block's point `p`. -/
theorem blend_apply (p : Fin 2048) (d : Fin 64) :
    k0_pay2 (F := Ideal) v1 (k0_pay3 v3) (k0_pay4 v5) (k0_pay5 v0 v1 v2) (Scalar.ofBits .f32 0x00000000#32) (ix2 p d)
      = blend (row v0 p) (row v1) (row v2) (fun c => v3 (ix2 (0 : Fin 1) c)) (v5 (ix2 (0 : Fin 1) (0 : Fin 1))) d := by
  have hd : dot_S2048x256_S256x64_S2048x64_1_0_0_1_n_n = DotDims.plain 2048 256 64 := rfl
  unfold k0_pay2
  show matmul dot_S2048x256_S256x64_S2048x64_1_0_0_1_n_n none _ v1 (constant S2048x64 .f32 0x00000000#32) (ix2 p d) = _
  rw [hd]
  refine (PlainDot.matmul_apply_ix2 none _ v1 p d).trans ?_
  exact Finset.sum_congr rfl fun k _ => congrArg (· * v1 (ix2 k d)) (weight_apply v0 v1 v2 v3 v5 p k)

end Cert.KernelIdeal.Rows

end
-- ==== Proof.Blocks.lean ====
/-
  From the body's blocks to the whole arrays: each grid point `t` holds rows `2048·t … 2048·t + 2047` of the points and writes
  the same rows of the weights and of the blends; the centres, the gate row and the temperature are the same whole blocks at
  every point. The gate row the region finds is the logistic function of the logits, repeated along a unit axis, and the
  temperature block is the scaled and shifted logistic function of the raw parameter. The `64` blocks of `2048` rows cover
  all `131072` rows, so after the run the two result arrays are the weights and the blends of every point.
-/
import proofs.«116789_j46643344834801_1_alg».proof.Proof.Gen.KernelIdeal.Value
import proofs.«116789_j46643344834801_1_alg».proof.Proof.BodyRows
import Idealize.ShloMosaic.Lib.Pipeline.Value
import Idealize.ShloMosaic.Lib.StableHlo.Run

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.GatedSoftmin
open Idealize.ShloMosaic.Pipeline (Dat)

variable (m : (ℓ : Loc nD τ sig) → Buf (Elt Ideal) ℓ) (ρ : Dev nD → PrngReg)

/-- The five argument arrays as functions of an index. -/
abbrev points (c : Dev nD) : S131072x64.Idx → EReal := m ((c : Thread nD τ).loc main_arg0)
abbrev centresP (c : Dev nD) : S256x64.Idx → EReal := m ((c : Thread nD τ).loc main_arg1)
abbrev centresQ (c : Dev nD) : S256x64.Idx → EReal := m ((c : Thread nD τ).loc main_arg2)
abbrev logits (c : Dev nD) : S256.Idx → EReal := m ((c : Thread nD τ).loc main_arg3)
abbrev rawTemp (c : Dev nD) : S1.Idx → EReal := m ((c : Thread nD τ).loc main_arg4)

theorem hz : (![0, 0] : Fin 2 → Nat) = fun _ => 0 := funext fun a => by fin_cases a <;> rfl

/-- The block indices over the grid: the points' window and both result windows move with the grid point along the rows, every
    other window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The gate row the region finds, at centre `q`: the logistic function of that centre's logit. -/
theorem gate_at (c : Dev nD) (u : Fin 1) (q : Fin 256) :
    (V m c main_v14 : S1x256.Idx → EReal) (ix2 u q) = logistic (logits m c (ix1 q)) := by
  have e : (V m c main_v14 : S1x256.Idx → EReal) = broadcastInDim S1x256 ![1] bcast_S256_S1x256_1 (Host.divf (F := Ideal) (broadcastInDim S256 ![] bcast_S_S256 (constant (F := Ideal) S_ .f32 0x3F800000#32)) (addf (broadcastInDim S256 ![] bcast_S_S256 (constant (F := Ideal) S_ .f32 0x3F800000#32)) (Host.exp (F := Ideal) (Host.negf (F := Ideal) (logits m c))))) := by
    dsimp only [Gen.V, Gen.hostOps0]; after_results
  rw [e]
  refine (broadcastInDim_apply _ _ _ (ix2 u q) (ix1 q) (fun a => ?_)).trans ?_
  · match a with
    | ⟨0, _⟩ => show q.val = if (256 : Nat) = 1 then 0 else q.val; rw [if_neg (by decide)]
  · rfl

/-- The temperature block the region finds: the temperature of the raw parameter. -/
theorem temp_at (c : Dev nD) (u u' : Fin 1) :
    (V m c main_v7 : S1x1.Idx → EReal) (ix2 u u') = temperature (rawTemp m c (ix1 (0 : Fin 1))) := by
  have e : (V m c main_v7 : S1x1.Idx → EReal) = shapeCast S1x1 (addf (mulf (Host.divf (F := Ideal) (constant (F := Ideal) S_ .f32 0x3F800000#32) (addf (constant (F := Ideal) S_ .f32 0x3F800000#32) (Host.exp (F := Ideal) (Host.negf (F := Ideal) (shapeCast S_ (rawTemp m c) shapeCasts_S1_S_))))) (constant (F := Ideal) S_ .f32 0x3F7FBE77#32)) (constant (F := Ideal) S_ .f32 0x3A83126F#32)) shapeCasts_S_S1x1 := by
    dsimp only [Gen.V, Gen.hostOps0]; after_results
    first | rfl | (funext i; rfl)
  have h1 : S_.numel = 1 := rfl
  have e0 : shapeCast S_ (rawTemp m c) shapeCasts_S1_S_ ix0 = rawTemp m c (ix1 (0 : Fin 1)) :=
    shapeCast_apply _ _ ix0 (ix1 (0 : Fin 1)) (by
      rw [Shape.rowMajor_val_one]
      have h0 := (S_.rowMajor ix0).isLt
      show 0 = (S_.rowMajor ix0).val
      omega)
  rw [e]
  refine (shapeCast_apply _ shapeCasts_S_S1x1 (ix2 u u') ix0 ?_).trans ?_
  · rw [Shape.rowMajor_val_two]
    have h0 := (S_.rowMajor ix0).isLt
    have hu : u.val = 0 := by omega
    have hu' : u'.val = 0 := by omega
    show (S_.rowMajor ix0).val = u.val * 1 + u'.val
    omega
  · show temperature (shapeCast S_ (rawTemp m c) shapeCasts_S1_S_ ix0) = _
    rw [e0]

/-! ## The windows' blocks read at coordinates -/

/-- The points' block at grid point `t` is rows `2048·t …` of the points. -/
theorem points_block (c : Dev nD) (t : Fin cfg0.N) (p : Fin 2048) (k : Fin 64) (i : S131072x64.Idx)
    (hi0 : (i 0).val = t.val * 2048 + p.val) (hi1 : (i 1).val = k.val) :
    (iblk m c 0 t : S2048x64.Idx → EReal) (ix2 p k) = points m c i := by
  obtain ⟨h0, h1, -⟩ := idx_facts t
  unfold iblk
  rw [View.read_apply]
  show V m c main_arg0 _ = _
  rw [V_main_arg0]
  refine congrArg (points m c) (funext fun a => Fin.ext ?_)
  match a with
  | ⟨0, _⟩ => show win0_0.index t 0 * 2048 + 1 * p.val = (i 0).val; rw [h0, hi0]; omega
  | ⟨1, _⟩ => show win0_0.index t 1 * 64 + 1 * k.val = (i 1).val; rw [h1, hi1]; omega

/-- The first family's block is all of its centres, at every grid point. -/
theorem centresP_block (c : Dev nD) (t : Fin cfg0.N) (q : Fin 256) (k : Fin 64) :
    (iblk m c 1 t : S256x64.Idx → EReal) (ix2 q k) = centresP m c (ix2 q k) := by
  obtain ⟨-, -, h0, h1, -⟩ := idx_facts t
  unfold iblk
  rw [View.read_apply]
  show V m c main_arg1 _ = _
  rw [V_main_arg1]
  refine congrArg (centresP m c) (funext fun a => Fin.ext ?_)
  match a with
  | ⟨0, _⟩ => show win0_1.index t 0 * 256 + 1 * q.val = q.val; rw [h0]; omega
  | ⟨1, _⟩ => show win0_1.index t 1 * 64 + 1 * k.val = k.val; rw [h1]; omega

/-- The second family's block is all of its centres, at every grid point. -/
theorem centresQ_block (c : Dev nD) (t : Fin cfg0.N) (q : Fin 256) (k : Fin 64) :
    (iblk m c 2 t : S256x64.Idx → EReal) (ix2 q k) = centresQ m c (ix2 q k) := by
  obtain ⟨-, -, -, -, h0, h1, -⟩ := idx_facts t
  unfold iblk
  rw [View.read_apply]
  show V m c main_arg2 _ = _
  rw [V_main_arg2]
  refine congrArg (centresQ m c) (funext fun a => Fin.ext ?_)
  match a with
  | ⟨0, _⟩ => show win0_2.index t 0 * 256 + 1 * q.val = q.val; rw [h0]; omega
  | ⟨1, _⟩ => show win0_2.index t 1 * 64 + 1 * k.val = k.val; rw [h1]; omega

/-- The gate block is the whole gate row: at centre `q` the logistic function of that centre's logit. -/
theorem gate_block (c : Dev nD) (t : Fin cfg0.N) (u : Fin 1) (q : Fin 256) :
    (iblk m c 3 t : S1x256.Idx → EReal) (ix2 u q) = logistic (logits m c (ix1 q)) := by
  obtain ⟨-, -, -, -, -, -, h0, h1, -⟩ := idx_facts t
  unfold iblk
  rw [View.read_apply]
  show (V m c main_v14 : S1x256.Idx → EReal) _ = _
  refine Eq.trans (congrArg (V m c main_v14 : S1x256.Idx → EReal) (funext fun a => Fin.ext ?_)) (gate_at m c u q)
  match a with
  | ⟨0, _⟩ => show win0_3.index t 0 * 1 + 1 * u.val = u.val; rw [h0]; omega
  | ⟨1, _⟩ => show win0_3.index t 1 * 256 + 1 * q.val = q.val; rw [h1]; omega

/-- The temperature block is the temperature of the raw parameter. -/
theorem temp_block (c : Dev nD) (t : Fin cfg0.N) (u u' : Fin 1) :
    (iblk m c 4 t : S1x1.Idx → EReal) (ix2 u u') = temperature (rawTemp m c (ix1 (0 : Fin 1))) := by
  obtain ⟨-, -, -, -, -, -, -, -, h0, h1, -⟩ := idx_facts t
  unfold iblk
  rw [View.read_apply]
  show (V m c main_v7 : S1x1.Idx → EReal) _ = _
  refine Eq.trans (congrArg (V m c main_v7 : S1x1.Idx → EReal) (funext fun a => Fin.ext ?_)) (temp_at m c u u')
  match a with
  | ⟨0, _⟩ => show win0_4.index t 0 * 1 + 1 * u.val = u.val; rw [h0]; omega
  | ⟨1, _⟩ => show win0_4.index t 1 * 1 + 1 * u'.val = u'.val; rw [h1]; omega

/-! ## What the body leaves, entry by entry -/

/-- Entry `(p, q)` of the weights' buffer after the body: the weight of centre `q` for the block's point `p`. -/
theorem weights_buffer (x0 : FVec Ideal S2048x64 .f32) (x1 x2 : FVec Ideal S256x64 .f32) (x3 : FVec Ideal S1x256 .f32)
    (x4 : FVec Ideal S1x1 .f32) (p : Fin 2048) (q : Fin 256) :
    out0_6 (F := Ideal) x0 x1 x2 x3 x4 (ix2 p q)
      = weight (row x0 p) (row x1) (row x2) (fun c => x3 (ix2 (0 : Fin 1) c)) (x4 (ix2 (0 : Fin 1) (0 : Fin 1))) q := by
  unfold out0_6
  rw [View.canon_unit_zero hz]
  simp only [View.ld_unit_zero (S := S2048x64) hz, View.ld_unit_zero (S := S256x64) hz, View.ld_unit_zero (S := S1x256) hz,
    View.ld_unit_zero (S := S1x1) hz]
  exact Rows.weight_apply x0 x1 x2 x3 x4 p q

/-- Entry `(p, d)` of the blends' buffer after the body: coordinate `d` of the blend of the block's point `p`. -/
theorem blends_buffer (x0 : FVec Ideal S2048x64 .f32) (x1 x2 : FVec Ideal S256x64 .f32) (x3 : FVec Ideal S1x256 .f32)
    (x4 : FVec Ideal S1x1 .f32) (p : Fin 2048) (d : Fin 64) :
    out0_5 (F := Ideal) x0 x1 x2 x3 x4 (ix2 p d)
      = blend (row x0 p) (row x1) (row x2) (fun c => x3 (ix2 (0 : Fin 1) c)) (x4 (ix2 (0 : Fin 1) (0 : Fin 1))) d := by
  unfold out0_5
  rw [View.canon_unit_zero hz]
  simp only [View.ld_unit_zero (S := S2048x64) hz, View.ld_unit_zero (S := S256x64) hz, View.ld_unit_zero (S := S1x256) hz,
    View.ld_unit_zero (S := S1x1) hz]
  exact Rows.blend_apply x0 x1 x2 x3 x4 p d

/-- The rows and parameters the body sees at grid point `t` are those of the whole arrays. -/
theorem block_rows (c : Dev nD) (t : Fin cfg0.N) (p : Fin 2048) (r : Fin 131072) (hr : r.val = t.val * 2048 + p.val) :
    row (iblk m c 0 t : S2048x64.Idx → EReal) p = row (points m c) r
    ∧ row (iblk m c 1 t : S256x64.Idx → EReal) = row (centresP m c)
    ∧ row (iblk m c 2 t : S256x64.Idx → EReal) = row (centresQ m c)
    ∧ (fun q : Fin 256 => (iblk m c 3 t : S1x256.Idx → EReal) (ix2 (0 : Fin 1) q)) = gates (logits m c)
    ∧ (iblk m c 4 t : S1x1.Idx → EReal) (ix2 (0 : Fin 1) (0 : Fin 1)) = temperature (rawTemp m c (ix1 (0 : Fin 1))) :=
  ⟨funext fun k => points_block m c t p k (ix2 r k) hr rfl,
   funext fun q => funext fun k => centresP_block m c t q k,
   funext fun q => funext fun k => centresQ_block m c t q k,
   funext fun q => gate_block m c t 0 q,
   temp_block m c t 0 0⟩

/-- Equal rows, centres, gates and temperature give equal weights and blends. -/
theorem weight_congr {D C : ℕ} {x x' : Fin D → EReal} {P P' Q Q' : Fin C → Fin D → EReal} {g g' : Fin C → EReal} {τ τ' : EReal}
    {q q' : Fin C} (hx : x = x') (hP : P = P') (hQ : Q = Q') (hg : g = g') (hτ : τ = τ') (hq : q = q') :
    weight x P Q g τ q = weight x' P' Q' g' τ' q' := by
  subst hx hP hQ hg hτ hq; rfl

theorem blend_congr {D C : ℕ} {x x' : Fin D → EReal} {P P' Q Q' : Fin C → Fin D → EReal} {g g' : Fin C → EReal} {τ τ' : EReal}
    {d d' : Fin D} (hx : x = x') (hP : P = P') (hQ : Q = Q') (hg : g = g') (hτ : τ = τ') (hd : d = d') :
    blend x P Q g τ d = blend x' P' Q' g' τ' d' := by
  subst hx hP hQ hg hτ hd; rfl

/-! ## What each grid point writes back -/

/-- Entry `j` of what the body leaves in the weights' buffer at grid point `t` is the weights of every point at the place of
    the array that entry is written to. -/
theorem weights_block (c : Dev nD) (t : Fin cfg0.N) (j : S2048x256.Idx) :
    out0_6 (iblk m c 0 t) (iblk m c 1 t) (iblk m c 2 t) (iblk m c 3 t) (iblk m c 4 t) j
      = weights (points m c) (centresP m c) (centresQ m c) (logits m c) (rawTemp m c) (((cfg0.win 6).blk t).view.emb j) := by
  obtain ⟨p, q, rfl⟩ : ∃ (p : Fin 2048) (q : Fin 256), j = ix2 p q := ⟨j 0, j 1, eq_ix2 j⟩
  obtain ⟨-, -, -, -, -, -, -, -, -, -, -, -, h0, h1⟩ := idx_facts t
  have e0 : ((((cfg0.win 6).blk t).view.emb (ix2 p q)) 0).val = t.val * 2048 + p.val := by
    show win0_6.index t 0 * 2048 + 1 * p.val = _; rw [h0]; omega
  have e1 : ((((cfg0.win 6).blk t).view.emb (ix2 p q)) 1).val = q.val := by
    show win0_6.index t 1 * 256 + 1 * q.val = _; rw [h1]; omega
  obtain ⟨b0, b1, b2, b3, b4⟩ := block_rows m c t p ⟨_, idx2_lt0 (((cfg0.win 6).blk t).view.emb (ix2 p q))⟩ e0
  exact (weights_buffer (iblk m c 0 t) (iblk m c 1 t) (iblk m c 2 t) (iblk m c 3 t) (iblk m c 4 t) p q).trans
    (weight_congr b0 b1 b2 b3 b4 (Fin.ext e1.symm))

/-- The same for the blends. -/
theorem blends_block (c : Dev nD) (t : Fin cfg0.N) (j : S2048x64.Idx) :
    out0_5 (iblk m c 0 t) (iblk m c 1 t) (iblk m c 2 t) (iblk m c 3 t) (iblk m c 4 t) j
      = blends (points m c) (centresP m c) (centresQ m c) (logits m c) (rawTemp m c) (((cfg0.win 5).blk t).view.emb j) := by
  obtain ⟨p, d, rfl⟩ : ∃ (p : Fin 2048) (d : Fin 64), j = ix2 p d := ⟨j 0, j 1, eq_ix2 j⟩
  obtain ⟨-, -, -, -, -, -, -, -, -, -, h0, h1, -⟩ := idx_facts t
  have e0 : ((((cfg0.win 5).blk t).view.emb (ix2 p d)) 0).val = t.val * 2048 + p.val := by
    show win0_5.index t 0 * 2048 + 1 * p.val = _; rw [h0]; omega
  have e1 : ((((cfg0.win 5).blk t).view.emb (ix2 p d)) 1).val = d.val := by
    show win0_5.index t 1 * 64 + 1 * d.val = _; rw [h1]; omega
  obtain ⟨b0, b1, b2, b3, b4⟩ := block_rows m c t p ⟨_, idx2_lt0 (((cfg0.win 5).blk t).view.emb (ix2 p d))⟩ e0
  exact (blends_buffer (iblk m c 0 t) (iblk m c 1 t) (iblk m c 2 t) (iblk m c 3 t) (iblk m c 4 t) p d).trans
    (blend_congr b0 b1 b2 b3 b4 (Fin.ext e1.symm))

/-- Grid point `t` writes back block `t` of the weights of every point. -/
theorem weights_flushed (c : Dev nD) (t : Fin cfg0.N) :
    (dats m 0 c).flushed 6 t = ((cfg0.win 6).blk t).view.read (Elt Ideal)
      (weights (points m c) (centresP m c) (centresQ m c) (logits m c) (rawTemp m c)) := by
  rw [Value.flushed6]
  funext j
  exact weights_block m c t j

/-- Grid point `t` writes back block `t` of the blends of every point. -/
theorem blends_flushed (c : Dev nD) (t : Fin cfg0.N) :
    (dats m 0 c).flushed 5 t = ((cfg0.win 5).blk t).view.read (Elt Ideal)
      (blends (points m c) (centresP m c) (centresQ m c) (logits m c) (rawTemp m c)) := by
  rw [Value.flushed5]
  funext j
  exact blends_block m c t j

/-! ## The blocks cover the arrays -/

/-- An index of the weights is in grid point `t`'s block when each coordinate is in the block's range on its axis. -/
theorem mem_weights_block (t : Fin cfg0.N) (i : S131072x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v15_1).slice (win0_6.rect t)).set ↔ _
  rw [View.set_slice_whole, Rect.mem_set_unit]
  exact Iff.rfl

theorem mem_blends_block (t : Fin cfg0.N) (i : S131072x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v15_0).slice (win0_5.rect t)).set ↔ _
  rw [View.set_slice_whole, Rect.mem_set_unit]
  exact Iff.rfl

/-- Row `r` of the weights is written by grid point `r / 2048`. -/
theorem weights_cover (i : S131072x256.Idx) :
    ∃ t : Fin cfg0.N, (cfg0.win 6).flush t = true ∧ i ∈ ((cfg0.win 6).blk t).view.set := by
  have hN : cfg0.N = 64 := N_0
  have hi0 : (i 0).val < 131072 := (i 0).isLt
  have hi1 : (i 1).val < 256 := (i 1).isLt
  have ht : (i 0).val / 2048 < cfg0.N := by rw [hN]; omega
  obtain ⟨-, -, -, -, -, -, -, -, -, -, -, -, h0, h1⟩ := idx_facts ⟨(i 0).val / 2048, ht⟩
  refine ⟨⟨(i 0).val / 2048, ht⟩, flush0_6 _, ?_⟩
  rw [mem_weights_block]
  intro a
  match a with
  | ⟨0, _⟩ =>
    show win0_6.index ⟨(i 0).val / 2048, ht⟩ 0 * 2048 ≤ (i 0).val ∧ (i 0).val < win0_6.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_6.index ⟨(i 0).val / 2048, ht⟩ 1 * 256 ≤ (i 1).val ∧ (i 1).val < win0_6.index ⟨(i 0).val / 2048, ht⟩ 1 * 256 + 256
    rw [h1]; omega

/-- Row `r` of the blends is written by grid point `r / 2048`. -/
theorem blends_cover (i : S131072x64.Idx) :
    ∃ t : Fin cfg0.N, (cfg0.win 5).flush t = true ∧ i ∈ ((cfg0.win 5).blk t).view.set := by
  have hN : cfg0.N = 64 := N_0
  have hi0 : (i 0).val < 131072 := (i 0).isLt
  have hi1 : (i 1).val < 64 := (i 1).isLt
  have ht : (i 0).val / 2048 < cfg0.N := by rw [hN]; omega
  obtain ⟨-, -, -, -, -, -, -, -, -, -, h0, h1, -⟩ := idx_facts ⟨(i 0).val / 2048, ht⟩
  refine ⟨⟨(i 0).val / 2048, ht⟩, flush0_5 _, ?_⟩
  rw [mem_blends_block]
  intro a
  match a with
  | ⟨0, _⟩ =>
    show win0_5.index ⟨(i 0).val / 2048, ht⟩ 0 * 2048 ≤ (i 0).val ∧ (i 0).val < win0_5.index ⟨(i 0).val / 2048, ht⟩ 0 * 2048 + 2048
    rw [h0]; show (i 0).val / 2048 * 2048 ≤ (i 0).val ∧ (i 0).val < (i 0).val / 2048 * 2048 + 2048; omega
  | ⟨1, _⟩ =>
    show win0_5.index ⟨(i 0).val / 2048, ht⟩ 1 * 64 ≤ (i 1).val ∧ (i 1).val < win0_5.index ⟨(i 0).val / 2048, ht⟩ 1 * 64 + 64
    rw [h1]; omega

/-! ## The arrays after the run -/

/-- After the run the second result array holds the weights of every point. -/
theorem weights_final (c : Dev nD) :
    (dats m 0 c).arrAt 6 cfg0.N = weights (points m c) (centresP m c) (centresQ m c) (logits m c) (rawTemp m c) :=
  (dats m 0 c).arrAt_eq_of_cover 6 _ (fun t _ => weights_flushed m c t) weights_cover

/-- After the run the first result array holds the blends of every point. -/
theorem blends_final (c : Dev nD) :
    (dats m 0 c).arrAt 5 cfg0.N = blends (points m c) (centresP m c) (centresQ m c) (logits m c) (rawTemp m c) :=
  (dats m 0 c).arrAt_eq_of_cover 5 _ (fun t _ => blends_flushed m c t) blends_cover

/-- The kernel's run: every weakly fair execution ends with the blends and the weights of every point in the two result arrays,
    the arguments unchanged. -/
theorem run : θ_run defs (onTc (τ := τ) (main (F := Ideal))) ⟨m, fun _ => 0, ρ⟩ fun r => ∀ c : Dev nD,
      r.2.mem ((c : Thread nD τ).loc main_v15_0) = blends (points m c) (centresP m c) (centresQ m c) (logits m c) (rawTemp m c)
      ∧ r.2.mem ((c : Thread nD τ).loc main_v15_1) = weights (points m c) (centresP m c) (centresQ m c) (logits m c) (rawTemp m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (blends_final m c), (h c).2.1.trans (weights_final m c), (h c).2.2⟩)
    (Value.run_blocks m ρ)

end Cert.KernelIdeal.Blocks

end
-- ==== Proof.lean ====
/-
  The kernel and its reference compute the same gated softmin weights and the same blends of the centres.

  For every point `x` (a row of the first argument) both programs take the distances of `x` to two families of centres from the
  expanded square `|x|² + |p|² − 2·⟨x, p⟩` clamped at zero, turn minus their sum over a temperature into scores by the exponential,
  normalise the scores by their sum plus `ε`, multiply by a gate on the centres, normalise again, and blend the centres of the
  first family with these weights. The kernel does this for `2048` points at a time, the reference for all `131072` at once; read
  entry by entry over the extended reals both are the one function of `GatedSoftmin` (the reference: `ReferenceRows`; one run of
  the kernel's body: `BodyRows`; the kernel's blocks put together: `Blocks`). The only rewriting of arithmetic the comparison
  needs is `0 − d = −d` and `0 + s = s`, which hold at the infinities too, so the precondition is not used.
  The idealized kernel is the kernel's own text read over the extended reals, so that step owes nothing.
-/
import proofs.«116789_j46643344834801_1_alg».proof.Defs
import proofs.«116789_j46643344834801_1_alg».proof.Proof.Gen.Kernel
import proofs.«116789_j46643344834801_1_alg».proof.Proof.Gen.Kernel.Frame
import proofs.«116789_j46643344834801_1_alg».proof.Proof.Gen.KernelIdeal
import proofs.«116789_j46643344834801_1_alg».proof.Proof.Gen.KernelIdeal.Frame
import proofs.«116789_j46643344834801_1_alg».proof.Proof.Gen.ReferenceIdeal
import proofs.«116789_j46643344834801_1_alg».proof.Proof.Gen.Pre_finite_inputs
import proofs.«116789_j46643344834801_1_alg».proof.Proof.Gen.KernelIdeal.Value
import proofs.«116789_j46643344834801_1_alg».proof.Proof.Gen.ReferenceIdeal.Run
import proofs.«116789_j46643344834801_1_alg».proof.Proof.Gen.ReferenceIdeal.Read
import proofs.«116789_j46643344834801_1_alg».proof.Proof.ReferenceRows
import proofs.«116789_j46643344834801_1_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- The reference's run, its results dropped. -/
theorem frame_referenceIdeal : Cert.frame_ReferenceIdeal :=
  fun m ρ _ => (θ_run Cert.ReferenceIdeal.defs _ _).mono (fun _ h c => (h c).2.2)
    (Cert.ReferenceIdeal.Value.run (F := Ideal) m ρ)

/-- From memories that agree on the arguments both programs end with the blends and the weights of every point. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v67_eq, Cert.ReferenceIdeal.Rows.blends_eq, (hagree c).1, (hagree c).2.1,
      (hagree c).2.2.1, (hagree c).2.2.2.1, (hagree c).2.2.2.2]
  · rw [Cert.ReferenceIdeal.Read.val_main_v66_eq, Cert.ReferenceIdeal.Rows.weights_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
